-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2097152x64 : Shape := ⟨2, ![2097152, 64]⟩
abbrev S64x64 : Shape := ⟨2, ![64, 64]⟩
abbrev S64 : Shape := ⟨1, ![64]⟩
abbrev S32x64 : Shape := ⟨2, ![32, 64]⟩
abbrev S32 : Shape := ⟨1, ![32]⟩
abbrev S_ : Shape := ⟨0, ![]⟩

class Facts : Prop where
  bcast_S_S2097152x64 : S_.BroadcastsInDim S2097152x64 (![] : Fin 0 → Fin S2097152x64.rank)
  reducesTo_S2097152x64_S_d0_1 : S2097152x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S32x64 : S_.BroadcastsInDim S32x64 (![] : Fin 0 → Fin S32x64.rank)
  reducesTo_S32x64_S_d0_1 : S32x64.ReducesTo [0, 1] S_
  bcast_S_S32 : S_.BroadcastsInDim S32 (![] : Fin 0 → Fin S32.rank)
  reducesTo_S32_S_d0 : S32.ReducesTo [0] S_

variable [Facts]

def fn_part1 {F : FTy → Type} [FloatOps F] (main_arg4 : FVec F S32 .f32) (main_v13 : IVec S_ 1) (main_v16 : IVec S32x64 1) : IVec S_ 1 :=
  let main_c_5 : IVec S_ 1 := constantI S_ 1 1#1
  let main_v17 : IVec S_ 1 := (fun x v => Host.reduce IntOp.andi x v reducesTo_S32x64_S_d0_1 h_S_) main_v16 main_c_5
  let main_v18 : IVec S_ 1 := andi main_v13 main_v17
  let main_v19 : FVec F S32 .f32 := Host.absf main_arg4
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  main_v23

def fn {F : FTy → Type} [FloatOps F] (main_arg0 : FVec F S2097152x64 .f32) (main_arg1 : FVec F S64x64 .f32) (main_arg2 : FVec F S64 .f32) (main_arg3 : FVec F S32x64 .f32) (main_arg4 : FVec F S32 .f32) : IVec S_ 1 :=
  let main_v0 : FVec F S2097152x64 .f32 := Host.absf main_arg0
  let main_cst : FVec F S_ .f32 := constant S_ .f32 0x7F800000#32
  let main_v1 : FVec F S2097152x64 .f32 := broadcastInDim S2097152x64 ![] bcast_S_S2097152x64 main_cst
  let main_v2 : IVec S2097152x64 1 := cmpf .olt main_v0 main_v1
  let main_c : IVec S_ 1 := constantI S_ 1 1#1
  let main_v3 : IVec S_ 1 := (fun x v => Host.reduce IntOp.andi x v reducesTo_S2097152x64_S_d0_1 h_S_) main_v2 main_c
  let main_v4 : FVec F S64x64 .f32 := Host.absf main_arg1
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S32x64 .f32 := Host.absf main_arg3
  let main_cst_4 : FVec F S_ .f32 := constant S_ .f32 0x7F800000#32
  let main_v15 : FVec F S32x64 .f32 := broadcastInDim S32x64 ![] bcast_S_S32x64 main_cst_4
  let main_v16 : IVec S32x64 1 := cmpf .olt main_v14 main_v15
  fn_part1 (F := F) main_arg4 main_v13 main_v16
-- ==== Kernel.lean ====
abbrev S2097152x64 : Shape := ⟨2, ![2097152, 64]⟩
abbrev S64x64 : Shape := ⟨2, ![64, 64]⟩
abbrev S64 : Shape := ⟨1, ![64]⟩
abbrev S32x64 : Shape := ⟨2, ![32, 64]⟩
abbrev S32 : Shape := ⟨1, ![32]⟩
abbrev S1x64 : Shape := ⟨2, ![1, 64]⟩
abbrev S64x32 : Shape := ⟨2, ![64, 32]⟩
abbrev S1x32 : Shape := ⟨2, ![1, 32]⟩
abbrev S2097152x32 : Shape := ⟨2, ![2097152, 32]⟩
abbrev S32768x64 : Shape := ⟨2, ![32768, 64]⟩
abbrev S32768x32 : Shape := ⟨2, ![32768, 32]⟩

abbrev nBuf : Space → Nat
  | .hbm => 12
  | .vmem => 8
  | .smem => 0
  | _ => 0

abbrev bufTy : (tb : Table) → Fin (tcTables nBuf tb) → BufTy
  | .hbm, ⟨0, _⟩ => ⟨S2097152x64, .f32⟩
  | .hbm, ⟨1, _⟩ => ⟨S64x64, .f32⟩
  | .hbm, ⟨2, _⟩ => ⟨S64, .f32⟩
  | .hbm, ⟨3, _⟩ => ⟨S32x64, .f32⟩
  | .hbm, ⟨4, _⟩ => ⟨S32, .f32⟩
  | .hbm, ⟨5, _⟩ => ⟨S2097152x64, .bf16⟩
  | .hbm, ⟨6, _⟩ => ⟨S64x64, .f32⟩
  | .hbm, ⟨7, _⟩ => ⟨S1x64, .f32⟩
  | .hbm, ⟨8, _⟩ => ⟨S64x32, .f32⟩
  | .hbm, ⟨9, _⟩ => ⟨S1x32, .f32⟩
  | .hbm, ⟨10, _⟩ => ⟨S2097152x32, .bf16⟩
  | .hbm, ⟨11, _⟩ => ⟨S2097152x32, .f32⟩
  | .local _ .vmem, ⟨0, _⟩ => ⟨S32768x64, .bf16⟩
  | .local _ .vmem, ⟨1, _⟩ => ⟨S32768x64, .bf16⟩
  | .local _ .vmem, ⟨2, _⟩ => ⟨S64x64, .f32⟩
  | .local _ .vmem, ⟨3, _⟩ => ⟨S1x64, .f32⟩
  | .local _ .vmem, ⟨4, _⟩ => ⟨S64x32, .f32⟩
  | .local _ .vmem, ⟨5, _⟩ => ⟨S1x32, .f32⟩
  | .local _ .vmem, ⟨6, _⟩ => ⟨S32768x32, .bf16⟩
  | .local _ .vmem, ⟨7, _⟩ => ⟨S32768x32, .bf16⟩
  | _, _ => ⟨S2097152x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S32768x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S32768x32 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  bitsLt_bf16_f32 : FTy.bits .bf16 < FTy.bits .f32
  transposes_S64x64_S64x64_1_0 : S64x64.Transposes [1, 0] S64x64
  shapeCasts_S64_S1x64 : S64.ShapeCasts S1x64
  transposes_S32x64_S64x32_1_0 : S32x64.Transposes [1, 0] S64x32
  shapeCasts_S32_S1x32 : S32.ShapeCasts S1x32
  inb_S32768x64_S32768x64_0_0 : ∀ a, (![0, 0] : Fin 2 → Nat) a + S32768x64.size a ≤ S32768x64.size a
  h_S32768x64 : 0 < S32768x64.numel
  shapeCasts_S32768x64_S32768x64 : S32768x64.ShapeCasts S32768x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S32768x64 : S1x64.Broadcasts S32768x64
  inb_S64x32_S64x32_0_0 : ∀ a, (![0, 0] : Fin 2 → Nat) a + S64x32.size a ≤ S64x32.size a
  h_S64x32 : 0 < S64x32.numel
  shapeCasts_S64x32_S64x32 : S64x32.ShapeCasts S64x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S32768x32 : S1x32.Broadcasts S32768x32
  inb_S32768x32_S32768x32_0_0 : ∀ a, (![0, 0] : Fin 2 → Nat) a + S32768x32.size a ≤ S32768x32.size a
  h_S32768x32 : 0 < S32768x32.numel
  packedbf16_S32768x32_S32768x32_0_0 : (Rect.unit (s := S32768x32) ![0, 0] S32768x32.size inb_S32768x32_S32768x32_0_0).PackedRows (EltTy.packing .bf16)
  dot_S32768x64_S64x64_S32768x64_1_0_0_1_n_n_wf : DotDims.WF S32768x64 S64x64 S32768x64 [1] [0] [0] [1] [] []
  dot_S32768x64_S64x32_S32768x32_1_0_0_1_n_n_wf : DotDims.WF S32768x64 S64x32 S32768x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32768x64.size a ≤ S2097152x64.size a
  hwx0_0 : ∀ i : grid0.Coords, EltTy.bits .bf16 = 32 ∨ (Rect.block (s := S2097152x64) S32768x64.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x32.size a ≤ S64x32.size a
  hwx0_3 : ∀ i : grid0.Coords, EltTy.bits .f32 = 32 ∨ (Rect.block (s := S64x32) S64x32.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x32.size a ≤ S1x32.size a
  hwx0_4 : ∀ i : grid0.Coords, EltTy.bits .f32 = 32 ∨ (Rect.block (s := S1x32) S1x32.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S32768x32.size a ≤ S2097152x32.size a
  hwx0_5 : ∀ i : grid0.Coords, EltTy.bits .bf16 = 32 ∨ (Rect.block (s := S2097152x32) S32768x32.size (cc0_transform_5 i) (hinb0_5 i)).WholeWords (EltTy.packing .bf16)

variable [Facts₀]

def dot_S32768x64_S64x64_S32768x64_1_0_0_1_n_n : DotDims S32768x64 S64x64 S32768x64 where
  lhsContracting := [1]
  rhsContracting := [0]
  lhsNonContracting := [0]
  rhsNonContracting := [1]
  lhsBatch := []
  rhsBatch := []
  wf := dot_S32768x64_S64x64_S32768x64_1_0_0_1_n_n_wf
def dot_S32768x64_S64x32_S32768x32_1_0_0_1_n_n : DotDims S32768x64 S64x32 S32768x32 where
  lhsContracting := [1]
  rhsContracting := [0]
  lhsNonContracting := [0]
  rhsNonContracting := [1]
  lhsBatch := []
  rhsBatch := []
  wf := dot_S32768x64_S64x32_S32768x32_1_0_0_1_n_n_wf

abbrev win0_0 : Pipeline.Window sig grid0 :=
  Pipeline.Window.ofSpec (Memref.whole main_v0) S32768x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S64x32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1x32.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5) S32768x32.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S2097152x64 : Shape := ⟨2, ![2097152, 64]⟩
abbrev S64x64 : Shape := ⟨2, ![64, 64]⟩
abbrev S64 : Shape := ⟨1, ![64]⟩
abbrev S32x64 : Shape := ⟨2, ![32, 64]⟩
abbrev S32 : Shape := ⟨1, ![32]⟩
abbrev S1x64 : Shape := ⟨2, ![1, 64]⟩
abbrev S_ : Shape := ⟨0, ![]⟩
abbrev S64x32 : Shape := ⟨2, ![64, 32]⟩
abbrev S2097152x32 : Shape := ⟨2, ![2097152, 32]⟩
abbrev S1x32 : Shape := ⟨2, ![1, 32]⟩

abbrev nBuf : Space → Nat
  | .hbm => 22
  | .vmem => 0
  | .smem => 0
  | _ => 0

abbrev bufTy : (tb : Table) → Fin (tcTables nBuf tb) → BufTy
  | .hbm, ⟨0, _⟩ => ⟨S2097152x64, .f32⟩
  | .hbm, ⟨1, _⟩ => ⟨S64x64, .f32⟩
  | .hbm, ⟨2, _⟩ => ⟨S64, .f32⟩
  | .hbm, ⟨3, _⟩ => ⟨S32x64, .f32⟩
  | .hbm, ⟨4, _⟩ => ⟨S32, .f32⟩
  | .hbm, ⟨5, _⟩ => ⟨S64x64, .f32⟩
  | .hbm, ⟨6, _⟩ => ⟨S2097152x64, .f32⟩
  | .hbm, ⟨7, _⟩ => ⟨S1x64, .f32⟩
  | .hbm, ⟨8, _⟩ => ⟨S2097152x64, .f32⟩
  | .hbm, ⟨9, _⟩ => ⟨S2097152x64, .f32⟩
  | .hbm, ⟨10, _⟩ => ⟨S_, .f32⟩
  | .hbm, ⟨11, _⟩ => ⟨S2097152x64, .f32⟩
  | .hbm, ⟨12, _⟩ => ⟨S2097152x64, .i1⟩
  | .hbm, ⟨13, _⟩ => ⟨S_, .f32⟩
  | .hbm, ⟨14, _⟩ => ⟨S2097152x64, .f32⟩
  | .hbm, ⟨15, _⟩ => ⟨S2097152x64, .f32⟩
  | .hbm, ⟨16, _⟩ => ⟨S2097152x64, .f32⟩
  | .hbm, ⟨17, _⟩ => ⟨S64x32, .f32⟩
  | .hbm, ⟨18, _⟩ => ⟨S2097152x32, .f32⟩
  | .hbm, ⟨19, _⟩ => ⟨S1x32, .f32⟩
  | .hbm, ⟨20, _⟩ => ⟨S2097152x32, .f32⟩
  | .hbm, ⟨21, _⟩ => ⟨S2097152x32, .f32⟩
  | _, _ => ⟨S2097152x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩

abbrev nD : Nat := 1
abbrev τ : Topo := Topo.v7x

variable {F : FTy → Type} [FloatOps F]

class Facts₀ : Prop where
  transposes_S64x64_S64x64_1_0 : S64x64.Transposes [1, 0] S64x64
  bcast_S64_S1x64_1 : S64.BroadcastsInDim S1x64 (![1] : Fin 1 → Fin S1x64.rank)
  bcast_S1x64_S2097152x64_0_1 : S1x64.BroadcastsInDim S2097152x64 (![0, 1] : Fin 2 → Fin S2097152x64.rank)
  bcast_S_S2097152x64 : S_.BroadcastsInDim S2097152x64 (![] : Fin 0 → Fin S2097152x64.rank)
  transposes_S32x64_S64x32_1_0 : S32x64.Transposes [1, 0] S64x32
  bcast_S32_S1x32_1 : S32.BroadcastsInDim S1x32 (![1] : Fin 1 → Fin S1x32.rank)
  bcast_S1x32_S2097152x32_0_1 : S1x32.BroadcastsInDim S2097152x32 (![0, 1] : Fin 2 → Fin S2097152x32.rank)
  dot_S2097152x64_S64x64_S2097152x64_1_0_0_1_n_n_wf : DotDims.WF S2097152x64 S64x64 S2097152x64 [1] [0] [0] [1] [] []
  dot_S2097152x64_S64x32_S2097152x32_1_0_0_1_n_n_wf : DotDims.WF S2097152x64 S64x32 S2097152x32 [1] [0] [0] [1] [] []

variable [Facts₀]

def dot_S2097152x64_S64x64_S2097152x64_1_0_0_1_n_n : DotDims S2097152x64 S64x64 S2097152x64 where
  lhsContracting := [1]
  rhsContracting := [0]
  lhsNonContracting := [0]
  rhsNonContracting := [1]
  lhsBatch := []
  rhsBatch := []
  wf := dot_S2097152x64_S64x64_S2097152x64_1_0_0_1_n_n_wf
def dot_S2097152x64_S64x32_S2097152x32_1_0_0_1_n_n : DotDims S2097152x64 S64x32 S2097152x32 where
  lhsContracting := [1]
  rhsContracting := [0]
  lhsNonContracting := [0]
  rhsNonContracting := [1]
  lhsBatch := []
  rhsBatch := []
  wf := dot_S2097152x64_S64x32_S2097152x32_1_0_0_1_n_n_wf

class Facts : Prop extends Facts₀ where

variable [Facts]
-- ==== Proof.MlpSpec.lean ====
/-
  The mathematics both programs compute, stated once on the extended reals and over literal extents.

  One row `x ∈ EReal^64` goes through two affine layers with a leaky rectifier between them:
    hidden k = (Σ_l x l · W1 k l) + b1 k                     (k < 64)
    act h    = h when h ≥ 0, else slope · h                   (slope the binary32 word 0x3C23D70A, about 0.01)
    out j    = (Σ_k act (hidden k) · W2 j k) + b2 j           (j < 32)
  `layer` applies this to every row of a [2097152, 64] array, with W1 : [64, 64], b1 : [64], W2 : [32, 64], b2 : [32]
  given as arrays in the layout of the arguments (weights stored output-major, as `x @ W.T` reads them).

  Nothing here is rounded: sums are sums of extended reals, the order of a sum is immaterial, and the two literals are
  kept as their binary words, the same words in both programs, so they are never evaluated.
-/
import Idealize.ShloMosaic.PureOps.Ideal
import Idealize.ShloMosaic.Lib.ValueIdx

noncomputable section

namespace Cert.Mlp

open Idealize.ShloMosaic Idealize.ShloMosaic.ValueIdx
open scoped BigOperators

/-- The leaky rectifier on an extended real: the value itself when it is at least the zero word's value, otherwise the
    slope word's value times it. -/
def act (h : EReal) : EReal :=
  Scalar.select (Ideal.cmp .oge h (Ideal.ofBits .f32 0x00000000#32)) h (Ideal.ofBits .f32 0x3C23D70A#32 * h)

/-- The first affine layer at hidden unit `k`: the row against row `k` of the first weight table, plus the bias. -/
def hidden (x : Fin 64 → EReal) (W1 : Fin 64 → Fin 64 → EReal) (b1 : Fin 64 → EReal) (k : Fin 64) : EReal :=
  (∑ l : Fin 64, x l * W1 k l) + b1 k

/-- The whole map at output unit `j`: the rectified hidden units against row `j` of the second weight table, plus the bias. -/
def out (x : Fin 64 → EReal) (W1 : Fin 64 → Fin 64 → EReal) (b1 : Fin 64 → EReal)
    (W2 : Fin 32 → Fin 64 → EReal) (b2 : Fin 32 → EReal) (j : Fin 32) : EReal :=
  (∑ k : Fin 64, act (hidden x W1 b1 k) * W2 j k) + b2 j

/-- The map applied to every row of the batch: entry `(r, j)` of the result depends on row `r` of the batch only. -/
def layer (X : (⟨2, ![2097152, 64]⟩ : Shape).Idx → EReal) (W1 : (⟨2, ![64, 64]⟩ : Shape).Idx → EReal)
    (b1 : (⟨1, ![64]⟩ : Shape).Idx → EReal) (W2 : (⟨2, ![32, 64]⟩ : Shape).Idx → EReal)
    (b2 : (⟨1, ![32]⟩ : Shape).Idx → EReal) : (⟨2, ![2097152, 32]⟩ : Shape).Idx → EReal :=
  fun i => out (fun l => X (ix2 (i 0) l)) (fun k l => W1 (ix2 k l)) (fun k => b1 (ix1 k))
    (fun j k => W2 (ix2 j k)) (fun j => b2 (ix1 j)) (i 1)

/-- Two rows that agree entry by entry, against tables that agree entry by entry, give the same output. -/
theorem out_congr {x x' : Fin 64 → EReal} {W1 W1' : Fin 64 → Fin 64 → EReal} {b1 b1' : Fin 64 → EReal}
    {W2 W2' : Fin 32 → Fin 64 → EReal} {b2 b2' : Fin 32 → EReal} (hx : ∀ l, x l = x' l)
    (hW1 : ∀ k l, W1 k l = W1' k l) (hb1 : ∀ k, b1 k = b1' k) (hW2 : ∀ j k, W2 j k = W2' j k)
    (hb2 : ∀ j, b2 j = b2' j) (j : Fin 32) : out x W1 b1 W2 b2 j = out x' W1' b1' W2' b2' j := by
  have e1 : x = x' := funext hx
  have e2 : W1 = W1' := funext fun k => funext (hW1 k)
  have e3 : b1 = b1' := funext hb1
  have e4 : W2 = W2' := funext fun j => funext (hW2 j)
  have e5 : b2 = b2' := funext hb2
  rw [e1, e2, e3, e4, e5]

end Cert.Mlp

end
-- ==== Proof.RefLayer.lean ====
/-
  The reference program computes `Cert.Mlp.layer` of its five arguments.

  Read one operation at a time, entry `(r, j)` of the reference's result is
    Σ_k sel(r, k) · W2ᵀ(k, j) + b2(j),   sel(r, k) = select (h(r, k) ≥ 0) (h(r, k)) (slope · h(r, k)),
    h(r, k) = Σ_l x(r, l) · W1ᵀ(l, k) + b1(k),
  where W1ᵀ(l, k) = W1(k, l) and W2ᵀ(k, j) = W2(j, k) are the host transposes and the biases are broadcast along the
  rows. Each index function composed below is named by its coordinates; after that the two sides are one term.
-/
import proofs.«109939_g54271206752818_cont_9to1_m_1050_23_alg».proof.Proof.Gen.ReferenceIdeal.Read
import proofs.«109939_g54271206752818_cont_9to1_m_1050_23_alg».proof.Proof.MlpSpec

noncomputable section

namespace Cert.ReferenceIdeal.RefValue

open Cert.ReferenceIdeal Cert.ReferenceIdeal.Gen Cert.ReferenceIdeal.Read
open Idealize.ShloMosaic Idealize.ShloMosaic.ValueIdx
open scoped BigOperators

variable (x0 : (⟨S2097152x64, .f32⟩ : BufTy).Contents (Elt Ideal)) (x1 : (⟨S64x64, .f32⟩ : BufTy).Contents (Elt Ideal))
  (x2 : (⟨S64, .f32⟩ : BufTy).Contents (Elt Ideal)) (x3 : (⟨S32x64, .f32⟩ : BufTy).Contents (Elt Ideal))
  (x4 : (⟨S32, .f32⟩ : BufTy).Contents (Elt Ideal))

/-! ## The index functions, by coordinates -/

/-- The first product's left operand at `(r, k)`, contraction coordinate `l`, is `x` at `(r, l)`. -/
theorem lidx1_eq (j : S2097152x64.Idx) (l : Fin 64) : lidx_main_v1 j l = ix2 (j 0) l :=
  funext fun a => Fin.ext (by match a with | ⟨0, _⟩ => rfl | ⟨1, _⟩ => rfl)

/-- Its right operand is the transposed first table at `(l, k)`, that is the table at `(k, l)`. -/
theorem ridx1_eq (j : S2097152x64.Idx) (l : Fin 64) : idx_main_v0 (ridx_main_v1 j l) = ix2 (j 1) l :=
  funext fun a => Fin.ext (by match a with | ⟨0, _⟩ => rfl | ⟨1, _⟩ => rfl)

/-- The first bias, broadcast along the rows, is read at the column. -/
theorem bidx1_eq (j : S2097152x64.Idx) : idx_main_v2 (idx_main_v3 j) = ix1 (j 1) :=
  funext fun a => Fin.ext (by match a with | ⟨0, _⟩ => rfl)

/-- The second product's right operand is the transposed second table at `(k, j)`, that is the table at `(j, k)`. -/
theorem ridx2_eq (i : S2097152x32.Idx) (k : Fin 64) : idx_main_v10 (ridx_main_v11 i k) = ix2 (i 1) k :=
  funext fun a => Fin.ext (by match a with | ⟨0, _⟩ => rfl | ⟨1, _⟩ => rfl)

/-- The second bias, broadcast along the rows, is read at the column. -/
theorem bidx2_eq (i : S2097152x32.Idx) : idx_main_v12 (idx_main_v13 i) = ix1 (i 1) :=
  funext fun a => Fin.ext (by match a with | ⟨0, _⟩ => rfl)

/-! ## The stages -/

/-- The first affine layer at `(r, k)`: row `r` of the batch against row `k` of the first table, plus the bias. -/
theorem hidden_at (j : S2097152x64.Idx) :
    val_main_v4 (F := Ideal) x0 x1 x2 j
      = Cert.Mlp.hidden (fun l => x0 (ix2 (j 0) l)) (fun k l => x1 (ix2 k l)) (fun k => x2 (ix1 k)) (j 1) := by
  rw [val_main_v4_apply, val_main_v1_apply, val_main_v3_apply, val_main_v2_apply]
  simp only [val_main_v0_apply, lidx1_eq, ridx1_eq, bidx1_eq]
  rfl

/-- The rectified hidden unit at `(r, k)`. -/
theorem act_at (j : S2097152x64.Idx) :
    val_main_v9 (F := Ideal) x0 x1 x2 j
      = Cert.Mlp.act (Cert.Mlp.hidden (fun l => x0 (ix2 (j 0) l)) (fun k l => x1 (ix2 k l)) (fun k => x2 (ix1 k)) (j 1)) := by
  rw [val_main_v9_apply, val_main_v6_apply, val_main_v8_apply, val_main_v5_apply, val_main_v7_apply,
    val_main_cst_apply, val_main_cst_0_apply, hidden_at]
  rfl

/-- The reference's result is the layer of its arguments. -/
theorem result_eq_layer : val_main_v14 (F := Ideal) x0 x1 x2 x3 x4 = Cert.Mlp.layer x0 x1 x2 x3 x4 := by
  funext i
  rw [val_main_v14_apply, val_main_v11_apply, val_main_v13_apply, val_main_v12_apply]
  simp only [val_main_v10_apply, ridx2_eq, bidx2_eq, act_at]
  rfl

end Cert.ReferenceIdeal.RefValue

end
-- ==== Proof.BodyLayer.lean ====
/-
  What the kernel body stores, at an index of its output block.

  The body holds a block of 32768 rows of the batch `x`, the first table already transposed (`w1t (l, k) = W1 (k, l)`),
  the first bias as one row, the second table transposed (`w2t (k, j) = W2 (j, k)`) and the second bias as one row. It
  forms `h = x · w1t + b1` with a product into a zero accumulator, rectifies it entry by entry, forms `sel · w2t + b2`
  the same way, and stores that. Read at `(p, j)`, a product into zero is a sum over the 64 contracted coordinates and a
  one-row bias broadcast down the rows is its entry at the column, so the stored entry is `Cert.Mlp.out` of row `p` of the
  block against the two tables read through their transposes. Changes of float format are the identity on extended reals.
-/
import proofs.«109939_g54271206752818_cont_9to1_m_1050_23_alg».proof.Proof.Gen.KernelIdeal.Skeleton
import proofs.«109939_g54271206752818_cont_9to1_m_1050_23_alg».proof.Proof.MlpSpec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.BodyValue

open Cert.KernelIdeal Cert.KernelIdeal.Gen
open Idealize.ShloMosaic Idealize.ShloMosaic.ValueIdx
open scoped BigOperators

/-! ## The two products, read at an index -/

theorem lhsA_0 (i : S32768x64.Idx) (q : dot_S32768x64_S64x64_S32768x64_1_0_0_1_n_n.contr.Idx) : (dot_S32768x64_S64x64_S32768x64_1_0_0_1_n_n.lhsIdx i q 0).val = (i 0).val := by
  unfold DotDims.lhsIdx
  rw [dif_neg (show ¬(0 : Fin S32768x64.rank) ∈ dot_S32768x64_S64x64_S32768x64_1_0_0_1_n_n.lhsBatch by decide), dif_pos (show (0 : Fin S32768x64.rank) ∈ dot_S32768x64_S64x64_S32768x64_1_0_0_1_n_n.lhsNonContracting by decide)]
  rfl
theorem lhsA_1 (i : S32768x64.Idx) (q : dot_S32768x64_S64x64_S32768x64_1_0_0_1_n_n.contr.Idx) : (dot_S32768x64_S64x64_S32768x64_1_0_0_1_n_n.lhsIdx i q 1).val = (q ⟨0, by decide⟩).val :=
  dot_S32768x64_S64x64_S32768x64_1_0_0_1_n_n.lhsIdx_val_of_single rfl i q
theorem rhsA_0 (i : S32768x64.Idx) (q : dot_S32768x64_S64x64_S32768x64_1_0_0_1_n_n.contr.Idx) : (dot_S32768x64_S64x64_S32768x64_1_0_0_1_n_n.rhsIdx i q 0).val = (q ⟨0, by decide⟩).val :=
  dot_S32768x64_S64x64_S32768x64_1_0_0_1_n_n.rhsIdx_val_of_single rfl i q
theorem rhsA_1 (i : S32768x64.Idx) (q : dot_S32768x64_S64x64_S32768x64_1_0_0_1_n_n.contr.Idx) : (dot_S32768x64_S64x64_S32768x64_1_0_0_1_n_n.rhsIdx i q 1).val = (i 1).val := by
  unfold DotDims.rhsIdx
  rw [dif_neg (show ¬(1 : Fin S64x64.rank) ∈ dot_S32768x64_S64x64_S32768x64_1_0_0_1_n_n.rhsBatch by decide), dif_pos (show (1 : Fin S64x64.rank) ∈ dot_S32768x64_S64x64_S32768x64_1_0_0_1_n_n.rhsNonContracting by decide)]
  rfl

/-- The product into a zero accumulator, at row `p` and column `c`: the sum over the 64 contracted coordinates of the
    left operand's row `p` against the right operand's column `c`. -/
theorem matmulA_apply (a : FVec Ideal S32768x64 .f32) (b : FVec Ideal S64x64 .f32) (p : Fin 32768) (c : Fin 64) :
    matmul dot_S32768x64_S64x64_S32768x64_1_0_0_1_n_n none a b (constant S32768x64 .f32 0x00000000#32) (ix2 p c)
      = ∑ k : Fin 64, a (ix2 p k) * b (ix2 k c) := by
  simp only [matmul]
  rw [Ideal.matmul_constant_zero_apply, ← Equiv.sum_comp (contrEquiv1 dot_S32768x64_S64x64_S32768x64_1_0_0_1_n_n 64 rfl rfl).symm]
  refine Finset.sum_congr rfl fun k _ => ?_
  have hk := contrEquiv1_symm_val dot_S32768x64_S64x64_S32768x64_1_0_0_1_n_n 64 rfl rfl k
  have el : dot_S32768x64_S64x64_S32768x64_1_0_0_1_n_n.lhsIdx (ix2 p c) ((contrEquiv1 dot_S32768x64_S64x64_S32768x64_1_0_0_1_n_n 64 rfl rfl).symm k) = ix2 p k := funext fun ax => Fin.ext (by
    match ax with
    | ⟨0, _⟩ => exact lhsA_0 _ _
    | ⟨1, _⟩ => exact (lhsA_1 _ _).trans hk)
  have er : dot_S32768x64_S64x64_S32768x64_1_0_0_1_n_n.rhsIdx (ix2 p c) ((contrEquiv1 dot_S32768x64_S64x64_S32768x64_1_0_0_1_n_n 64 rfl rfl).symm k) = ix2 k c := funext fun ax => Fin.ext (by
    match ax with
    | ⟨0, _⟩ => exact (rhsA_0 _ _).trans hk
    | ⟨1, _⟩ => exact rhsA_1 _ _)
  rw [el, er]

theorem lhsB_0 (i : S32768x32.Idx) (q : dot_S32768x64_S64x32_S32768x32_1_0_0_1_n_n.contr.Idx) : (dot_S32768x64_S64x32_S32768x32_1_0_0_1_n_n.lhsIdx i q 0).val = (i 0).val := by
  unfold DotDims.lhsIdx
  rw [dif_neg (show ¬(0 : Fin S32768x64.rank) ∈ dot_S32768x64_S64x32_S32768x32_1_0_0_1_n_n.lhsBatch by decide), dif_pos (show (0 : Fin S32768x64.rank) ∈ dot_S32768x64_S64x32_S32768x32_1_0_0_1_n_n.lhsNonContracting by decide)]
  rfl
theorem lhsB_1 (i : S32768x32.Idx) (q : dot_S32768x64_S64x32_S32768x32_1_0_0_1_n_n.contr.Idx) : (dot_S32768x64_S64x32_S32768x32_1_0_0_1_n_n.lhsIdx i q 1).val = (q ⟨0, by decide⟩).val :=
  dot_S32768x64_S64x32_S32768x32_1_0_0_1_n_n.lhsIdx_val_of_single rfl i q
theorem rhsB_0 (i : S32768x32.Idx) (q : dot_S32768x64_S64x32_S32768x32_1_0_0_1_n_n.contr.Idx) : (dot_S32768x64_S64x32_S32768x32_1_0_0_1_n_n.rhsIdx i q 0).val = (q ⟨0, by decide⟩).val :=
  dot_S32768x64_S64x32_S32768x32_1_0_0_1_n_n.rhsIdx_val_of_single rfl i q
theorem rhsB_1 (i : S32768x32.Idx) (q : dot_S32768x64_S64x32_S32768x32_1_0_0_1_n_n.contr.Idx) : (dot_S32768x64_S64x32_S32768x32_1_0_0_1_n_n.rhsIdx i q 1).val = (i 1).val := by
  unfold DotDims.rhsIdx
  rw [dif_neg (show ¬(1 : Fin S64x32.rank) ∈ dot_S32768x64_S64x32_S32768x32_1_0_0_1_n_n.rhsBatch by decide), dif_pos (show (1 : Fin S64x32.rank) ∈ dot_S32768x64_S64x32_S32768x32_1_0_0_1_n_n.rhsNonContracting by decide)]
  rfl

/-- The product into a zero accumulator, at row `p` and column `c`: the sum over the 64 contracted coordinates of the
    left operand's row `p` against the right operand's column `c`. -/
theorem matmulB_apply (a : FVec Ideal S32768x64 .f32) (b : FVec Ideal S64x32 .f32) (p : Fin 32768) (c : Fin 32) :
    matmul dot_S32768x64_S64x32_S32768x32_1_0_0_1_n_n none a b (constant S32768x32 .f32 0x00000000#32) (ix2 p c)
      = ∑ k : Fin 64, a (ix2 p k) * b (ix2 k c) := by
  simp only [matmul]
  rw [Ideal.matmul_constant_zero_apply, ← Equiv.sum_comp (contrEquiv1 dot_S32768x64_S64x32_S32768x32_1_0_0_1_n_n 64 rfl rfl).symm]
  refine Finset.sum_congr rfl fun k _ => ?_
  have hk := contrEquiv1_symm_val dot_S32768x64_S64x32_S32768x32_1_0_0_1_n_n 64 rfl rfl k
  have el : dot_S32768x64_S64x32_S32768x32_1_0_0_1_n_n.lhsIdx (ix2 p c) ((contrEquiv1 dot_S32768x64_S64x32_S32768x32_1_0_0_1_n_n 64 rfl rfl).symm k) = ix2 p k := funext fun ax => Fin.ext (by
    match ax with
    | ⟨0, _⟩ => exact lhsB_0 _ _
    | ⟨1, _⟩ => exact (lhsB_1 _ _).trans hk)
  have er : dot_S32768x64_S64x32_S32768x32_1_0_0_1_n_n.rhsIdx (ix2 p c) ((contrEquiv1 dot_S32768x64_S64x32_S32768x32_1_0_0_1_n_n 64 rfl rfl).symm k) = ix2 k c := funext fun ax => Fin.ext (by
    match ax with
    | ⟨0, _⟩ => exact (rhsB_0 _ _).trans hk
    | ⟨1, _⟩ => exact rhsB_1 _ _)
  rw [el, er]

/-! ## The biases: one row, broadcast down the rows -/

/-- The first bias row broadcast over the block reads, at `(p, k)`, its entry `k`. -/
theorem bias1_apply (v6 : FVec Ideal S1x64 .f32) (p : Fin 32768) (k : Fin 64) :
    broadcastTo S32768x64 (shapeCast S1x64 v6 shapeCasts_S1x64_S1x64) broadcasts_S1x64_S32768x64 (ix2 p k)
      = v6 (ix2 (0 : Fin 1) k) := by
  rw [shapeCast_self]
  exact broadcastTo_1b_ab_apply v6 broadcasts_S1x64_S32768x64 p k

/-- The second bias row broadcast over the block reads, at `(p, j)`, its entry `j`. -/
theorem bias2_apply (v18 : FVec Ideal S1x32 .f32) (p : Fin 32768) (j : Fin 32) :
    broadcastTo S32768x32 (shapeCast S1x32 v18 shapeCasts_S1x32_S1x32) broadcasts_S1x32_S32768x32 (ix2 p j)
      = v18 (ix2 (0 : Fin 1) j) := by
  rw [shapeCast_self]
  exact broadcastTo_1b_ab_apply v18 broadcasts_S1x32_S32768x32 p j

/-! ## The body's value in two steps -/

/-- The first affine layer on the block: the block of `x` against the transposed first table, plus the bias row. -/
def pre (v0 : FVec Ideal S32768x64 .bf16) (v3 : FVec Ideal S64x64 .f32) (v6 : FVec Ideal S1x64 .f32) : FVec Ideal S32768x64 .f32 :=
  addf (matmul dot_S32768x64_S64x64_S32768x64_1_0_0_1_n_n none (extf .f32 (shapeCast S32768x64 v0 shapeCasts_S32768x64_S32768x64) bitsLt_bf16_f32)
      (shapeCast S64x64 v3 shapeCasts_S64x64_S64x64) (constant S32768x64 .f32 0x00000000#32))
    (broadcastTo S32768x64 (shapeCast S1x64 v6 shapeCasts_S1x64_S1x64) broadcasts_S1x64_S32768x64)

/-- The rectifier on a block, entry by entry. -/
def rect (h : FVec Ideal S32768x64 .f32) : FVec Ideal S32768x64 .f32 :=
  select (cmpf .oge h (broadcast S32768x64 (Scalar.ofBits .f32 0x00000000#32))) h
    (mulf (broadcast S32768x64 (Scalar.ofBits .f32 0x3C23D70A#32)) h)

/-- The stored value is the second affine layer of the rectified first one. -/
theorem pay_eq (v0 : FVec Ideal S32768x64 .bf16) (v3 : FVec Ideal S64x64 .f32) (v6 : FVec Ideal S1x64 .f32)
    (v15 : FVec Ideal S64x32 .f32) (v18 : FVec Ideal S1x32 .f32) :
    k0_pay1 (F := Ideal) v0 v3 v6 v15 v18
      = truncf .bf16 (addf (matmul dot_S32768x64_S64x32_S32768x32_1_0_0_1_n_n none (rect (pre v0 v3 v6))
          (shapeCast S64x32 v15 shapeCasts_S64x32_S64x32) (constant S32768x32 .f32 0x00000000#32))
        (broadcastTo S32768x32 (shapeCast S1x32 v18 shapeCasts_S1x32_S1x32) broadcasts_S1x32_S32768x32)) bitsLt_bf16_f32 := rfl

/-- The first layer at `(p, k)`: row `p` of the block against row `k` of the first table, plus the bias. -/
theorem pre_apply (v0 : FVec Ideal S32768x64 .bf16) (v3 : FVec Ideal S64x64 .f32) (v6 : FVec Ideal S1x64 .f32)
    (p : Fin 32768) (k : Fin 64) :
    pre v0 v3 v6 (ix2 p k)
      = Cert.Mlp.hidden (fun l => v0 (ix2 p l)) (fun k l => v3 (ix2 l k)) (fun k => v6 (ix2 (0 : Fin 1) k)) k := by
  unfold pre
  rw [addf_apply, matmulA_apply, bias1_apply, shapeCast_self, shapeCast_self]
  rfl

/-- The rectifier at an entry. -/
theorem rect_apply (h : FVec Ideal S32768x64 .f32) (i : S32768x64.Idx) : rect h i = Cert.Mlp.act (h i) := rfl

/-- THE STORED ENTRY at `(p, j)` of the block: the two-layer map of row `p` of the block of `x`, the tables read through
    their transposes and the biases through their one row. -/
theorem payload_apply (v0 : FVec Ideal S32768x64 .bf16) (v3 : FVec Ideal S64x64 .f32) (v6 : FVec Ideal S1x64 .f32)
    (v15 : FVec Ideal S64x32 .f32) (v18 : FVec Ideal S1x32 .f32) (p : Fin 32768) (j : Fin 32) :
    k0_pay1 (F := Ideal) v0 v3 v6 v15 v18 (ix2 p j)
      = Cert.Mlp.out (fun l => v0 (ix2 p l)) (fun k l => v3 (ix2 l k)) (fun k => v6 (ix2 (0 : Fin 1) k))
          (fun j k => v15 (ix2 k j)) (fun j => v18 (ix2 (0 : Fin 1) j)) j := by
  rw [pay_eq, truncf_apply, addf_apply, matmulB_apply, bias2_apply, shapeCast_self]
  unfold Cert.Mlp.out
  simp only [rect_apply, pre_apply]

/-- The same for an index `y` of the block not yet split into coordinates. -/
theorem payload_at (v0 : FVec Ideal S32768x64 .bf16) (v3 : FVec Ideal S64x64 .f32) (v6 : FVec Ideal S1x64 .f32)
    (v15 : FVec Ideal S64x32 .f32) (v18 : FVec Ideal S1x32 .f32) (y : S32768x32.Idx) :
    k0_pay1 (F := Ideal) v0 v3 v6 v15 v18 y
      = Cert.Mlp.out (fun l => v0 (ix2 (y 0) l)) (fun k l => v3 (ix2 l k)) (fun k => v6 (ix2 (0 : Fin 1) k))
          (fun j k => v15 (ix2 k j)) (fun j => v18 (ix2 (0 : Fin 1) j)) (y 1) :=
  (congrArg (k0_pay1 (F := Ideal) v0 v3 v6 v15 v18) (eq_ix2 y)).trans (payload_apply v0 v3 v6 v15 v18 (y 0) (y 1))

/-- BLOCKS OF ARRAYS. When the body's five blocks are read off arrays `A0 … A4` — the block of `x` holding, in its row
    `y 0`, row `i 0` of `A0`; the two table blocks the transposes of `A1` and `A3`; the two bias rows `A2` and `A4` — the entry
    the body stores at `y` is entry `i` of the layer of those arrays, for any `i` in the same column as `y`. -/
theorem block_entry (x0 : FVec Ideal S32768x64 .bf16) (x1 : FVec Ideal S64x64 .f32) (x2 : FVec Ideal S1x64 .f32)
    (x3 : FVec Ideal S64x32 .f32) (x4 : FVec Ideal S1x32 .f32)
    (A0 : S2097152x64.Idx → EReal) (A1 : S64x64.Idx → EReal) (A2 : S64.Idx → EReal) (A3 : S32x64.Idx → EReal)
    (A4 : S32.Idx → EReal) (y : S32768x32.Idx) (i : S2097152x32.Idx)
    (h0 : ∀ l : Fin 64, x0 (ix2 (y 0) l) = A0 (ix2 (i 0) l))
    (h1 : ∀ k l : Fin 64, x1 (ix2 l k) = A1 (ix2 k l))
    (h2 : ∀ k : Fin 64, x2 (ix2 (0 : Fin 1) k) = A2 (ix1 k))
    (h3 : ∀ (j : Fin 32) (k : Fin 64), x3 (ix2 k j) = A3 (ix2 j k))
    (h4 : ∀ j : Fin 32, x4 (ix2 (0 : Fin 1) j) = A4 (ix1 j))
    (hcol : (i 1).val = (y 1).val) :
    k0_pay1 (F := Ideal) x0 x1 x2 x3 x4 y = Cert.Mlp.layer A0 A1 A2 A3 A4 i := by
  have hc : i 1 = y 1 := Fin.ext hcol
  unfold Cert.Mlp.layer
  rw [hc]
  exact (payload_at x0 x1 x2 x3 x4 y).trans (Cert.Mlp.out_congr h0 h1 h2 h3 h4 (y 1))

end Cert.KernelIdeal.BodyValue

end
-- ==== Proof.KernelValue.lean ====
/-
  The kernel program's result array, as a function of its five arguments.

  Before the region the host rounds `x` to the narrow format (the identity on extended reals), transposes the two weight
  tables and reshapes the two biases to one row each. The region walks the 64 blocks of 32768 rows: at block `t` the body
  sees rows `32768·t … 32768·t + 32767` of `x` and the whole of the four small arrays, and stores the two-layer map of
  those rows (Proof/BodyLayer.lean), which the pipeline writes back to the same rows of the output array. Row `r` lies in
  block `r / 32768`, so the 64 write-backs cover the array, and the array ends as `Cert.Mlp.layer` of the arguments. After
  the region the host widens the array (again the identity) into the result.
-/
import proofs.«109939_g54271206752818_cont_9to1_m_1050_23_alg».proof.Proof.Gen.KernelIdeal.Frame
import proofs.«109939_g54271206752818_cont_9to1_m_1050_23_alg».proof.Proof.BodyLayer
import Idealize.ShloMosaic.Lib.Pipeline.Value
import Idealize.ShloMosaic.Lib.StableHlo.Run
import Idealize.ShloMosaic.Lib.ValueLayout

noncomputable section

namespace Cert.KernelIdeal.KValue

open Cert.KernelIdeal Cert.KernelIdeal.Gen
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The layer of the five argument arrays as launched: what the result array will be shown to hold. -/
def result (c : Dev nD) : S2097152x32.Idx → EReal :=
  Cert.Mlp.layer (m ((c : Thread nD τ).loc main_arg0)) (m ((c : Thread nD τ).loc main_arg1))
    (m ((c : Thread nD τ).loc main_arg2)) (m ((c : Thread nD τ).loc main_arg3)) (m ((c : Thread nD τ).loc main_arg4))

/-! ## The arrays as the region finds them -/

/-- The batch, rounded to the narrow format: on extended reals, the batch. -/
theorem V_x (c : Dev nD) : (V m c main_v0 : FVec Ideal S2097152x64 .bf16)
    = truncf (F := Ideal) (s := S2097152x64) (φ := .f32) .bf16 (m ((c : Thread nD τ).loc main_arg0)) bitsLt_bf16_f32 := by
  show StableHlo.after hostOps0 (fun b => m (c, b)) (Proc.devRef .tc main_v0) = _
  after_results <;> rfl

/-- The first table, transposed. -/
theorem V_w1 (c : Dev nD) : (V m c main_v1 : FVec Ideal S64x64 .f32)
    = transpose S64x64 [1, 0] (m ((c : Thread nD τ).loc main_arg1) : FVec Ideal S64x64 .f32) transposes_S64x64_S64x64_1_0 := by
  show StableHlo.after hostOps0 (fun b => m (c, b)) (Proc.devRef .tc main_v1) = _
  after_results <;> rfl

/-- The first bias, as one row. -/
theorem V_b1 (c : Dev nD) : (V m c main_v2 : FVec Ideal S1x64 .f32)
    = shapeCast S1x64 (m ((c : Thread nD τ).loc main_arg2) : FVec Ideal S64 .f32) shapeCasts_S64_S1x64 := by
  show StableHlo.after hostOps0 (fun b => m (c, b)) (Proc.devRef .tc main_v2) = _
  after_results <;> rfl

/-- The second table, transposed. -/
theorem V_w2 (c : Dev nD) : (V m c main_v3 : FVec Ideal S64x32 .f32)
    = transpose S64x32 [1, 0] (m ((c : Thread nD τ).loc main_arg3) : FVec Ideal S32x64 .f32) transposes_S32x64_S64x32_1_0 := by
  show StableHlo.after hostOps0 (fun b => m (c, b)) (Proc.devRef .tc main_v3) = _
  after_results <;> rfl

/-- The second bias, as one row. -/
theorem V_b2 (c : Dev nD) : (V m c main_v4 : FVec Ideal S1x32 .f32)
    = shapeCast S1x32 (m ((c : Thread nD τ).loc main_arg4) : FVec Ideal S32 .f32) shapeCasts_S32_S1x32 := by
  show StableHlo.after hostOps0 (fun b => m (c, b)) (Proc.devRef .tc main_v4) = _
  after_results <;> rfl

/-! ## The index maps over the grid -/

theorem hz : (![0, 0] : Fin 2 → Nat) = fun _ => 0 := funext fun a => by fin_cases a <;> rfl

/-- At point `t` the batch and the output are at row block `t`, and each of the four small arrays is at its one block. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-! ## Each input block, read off the argument it restricts -/

/-- Row `p` of the batch's block at point `t` is row `32768·t + p` of the batch. -/
theorem blk_x (c : Dev nD) (t : Fin cfg0.N) (x : S32768x64.Idx) (k : S2097152x64.Idx)
    (hk0 : (k 0).val = t.val * 32768 + (x 0).val) (hk1 : (k 1).val = (x 1).val) :
    (iblk m c 0 t : FVec Ideal S32768x64 .bf16) x = (m ((c : Thread nD τ).loc main_arg0) : S2097152x64.Idx → EReal) k := by
  obtain ⟨e0, e1, -⟩ := idx_facts t
  unfold iblk
  rw [View.read_apply]
  show V m c main_v0 _ = _
  refine (congrFun (V_x m c) _).trans ?_
  show (m ((c : Thread nD τ).loc main_arg0) : S2097152x64.Idx → EReal) _ = _
  congr 1
  funext a
  apply Fin.ext
  match a with
  | ⟨0, _⟩ => show win0_0.index t (0 : Fin 2) * 32768 + 1 * (x 0).val = (k 0).val; rw [e0, hk0]; omega
  | ⟨1, _⟩ => show win0_0.index t (1 : Fin 2) * 64 + 1 * (x 1).val = (k 1).val; rw [e1, hk1]; omega

/-- The first table's block is the transposed table: entry `(l, k)` is the table's `(k, l)`. -/
theorem blk_w1 (c : Dev nD) (t : Fin cfg0.N) (l k : Fin 64) :
    (iblk m c 1 t : FVec Ideal S64x64 .f32) (ix2 l k) = (m ((c : Thread nD τ).loc main_arg1) : S64x64.Idx → EReal) (ix2 k l) := by
  obtain ⟨-, -, e0, e1, -⟩ := idx_facts t
  unfold iblk
  rw [View.read_apply]
  show V m c main_v1 _ = _
  refine (congrFun (V_w1 m c) _).trans ?_
  refine Eq.trans ?_ (transpose_ix2_apply (m ((c : Thread nD τ).loc main_arg1) : S64x64.Idx → EReal) transposes_S64x64_S64x64_1_0 l k)
  congr 1
  funext a
  apply Fin.ext
  match a with
  | ⟨0, _⟩ => show win0_1.index t (0 : Fin 2) * 64 + 1 * l.val = l.val; rw [e0]; omega
  | ⟨1, _⟩ => show win0_1.index t (1 : Fin 2) * 64 + 1 * k.val = k.val; rw [e1]; omega

/-- The first bias's block is the bias as one row. -/
theorem blk_b1 (c : Dev nD) (t : Fin cfg0.N) (k : Fin 64) :
    (iblk m c 2 t : FVec Ideal S1x64 .f32) (ix2 (0 : Fin 1) k) = (m ((c : Thread nD τ).loc main_arg2) : S64.Idx → EReal) (ix1 k) := by
  obtain ⟨-, -, -, -, e0, e1, -⟩ := idx_facts t
  unfold iblk
  rw [View.read_apply]
  show V m c main_v2 _ = _
  refine (congrFun (V_b1 m c) _).trans ?_
  refine Eq.trans ?_ (shapeCast_a_1a_apply (m ((c : Thread nD τ).loc main_arg2) : S64.Idx → EReal) shapeCasts_S64_S1x64 (0 : Fin 1) k)
  congr 1
  funext a
  apply Fin.ext
  match a with
  | ⟨0, _⟩ => show win0_2.index t (0 : Fin 2) * 1 + 1 * 0 = 0; rw [e0]
  | ⟨1, _⟩ => show win0_2.index t (1 : Fin 2) * 64 + 1 * k.val = k.val; rw [e1]; omega

/-- The second table's block is the transposed table: entry `(k, j)` is the table's `(j, k)`. -/
theorem blk_w2 (c : Dev nD) (t : Fin cfg0.N) (k : Fin 64) (j : Fin 32) :
    (iblk m c 3 t : FVec Ideal S64x32 .f32) (ix2 k j) = (m ((c : Thread nD τ).loc main_arg3) : S32x64.Idx → EReal) (ix2 j k) := by
  obtain ⟨-, -, -, -, -, -, e0, e1, -⟩ := idx_facts t
  unfold iblk
  rw [View.read_apply]
  show V m c main_v3 _ = _
  refine (congrFun (V_w2 m c) _).trans ?_
  refine Eq.trans ?_ (transpose_ix2_apply (m ((c : Thread nD τ).loc main_arg3) : S32x64.Idx → EReal) transposes_S32x64_S64x32_1_0 k j)
  congr 1
  funext a
  apply Fin.ext
  match a with
  | ⟨0, _⟩ => show win0_3.index t (0 : Fin 2) * 64 + 1 * k.val = k.val; rw [e0]; omega
  | ⟨1, _⟩ => show win0_3.index t (1 : Fin 2) * 32 + 1 * j.val = j.val; rw [e1]; omega

/-- The second bias's block is the bias as one row. -/
theorem blk_b2 (c : Dev nD) (t : Fin cfg0.N) (j : Fin 32) :
    (iblk m c 4 t : FVec Ideal S1x32 .f32) (ix2 (0 : Fin 1) j) = (m ((c : Thread nD τ).loc main_arg4) : S32.Idx → EReal) (ix1 j) := by
  obtain ⟨-, -, -, -, -, -, -, -, e0, e1, -⟩ := idx_facts t
  unfold iblk
  rw [View.read_apply]
  show V m c main_v4 _ = _
  refine (congrFun (V_b2 m c) _).trans ?_
  refine Eq.trans ?_ (shapeCast_a_1a_apply (m ((c : Thread nD τ).loc main_arg4) : S32.Idx → EReal) shapeCasts_S32_S1x32 (0 : Fin 1) j)
  congr 1
  funext a
  apply Fin.ext
  match a with
  | ⟨0, _⟩ => show win0_4.index t (0 : Fin 2) * 1 + 1 * 0 = 0; rw [e0]
  | ⟨1, _⟩ => show win0_4.index t (1 : Fin 2) * 32 + 1 * j.val = j.val; rw [e1]; omega

/-! ## What a point writes back, and the array after the run -/

/-- WHAT POINT `t` WRITES BACK is block `t` of the layer of the arguments. -/
theorem flushed_eq (c : Dev nD) (t : Fin cfg0.N) :
    (dats m 0 c).flushed 5 t = ((cfg0.win 5).blk t).view.read (Elt Ideal) (result m c) := by
  show (cfg0.win 5).cut (grid0.coords t) ((dats m 0 c).after 5 t) = _
  rw [after0_5]
  unfold out0_5
  rw [View.canon_unit_zero hz]
  simp only [View.ld_unit_zero (S := S32768x64) hz, View.ld_unit_zero (S := S64x64) hz, View.ld_unit_zero (S := S1x64) hz,
    View.ld_unit_zero (S := S64x32) hz, View.ld_unit_zero (S := S1x32) hz]
  obtain ⟨-, -, -, -, -, -, -, -, -, -, e0, e1⟩ := idx_facts t
  funext y
  show k0_pay1 (F := Ideal) (iblk m c 0 t) (iblk m c 1 t) (iblk m c 2 t) (iblk m c 3 t) (iblk m c 4 t) y
    = result m c (((cfg0.win 5).blk t).view.emb y)
  have hrow : ((((cfg0.win 5).blk t).view.emb y) 0).val = t.val * 32768 + (y 0).val := by
    show win0_5.index t (0 : Fin 2) * 32768 + 1 * (y 0).val = _
    rw [e0]; omega
  have hcol : ((((cfg0.win 5).blk t).view.emb y) 1).val = (y 1).val := by
    show win0_5.index t (1 : Fin 2) * 32 + 1 * (y 1).val = _
    rw [e1]; omega
  unfold result
  exact Cert.KernelIdeal.BodyValue.block_entry (iblk m c 0 t) (iblk m c 1 t) (iblk m c 2 t) (iblk m c 3 t) (iblk m c 4 t)
    (m ((c : Thread nD τ).loc main_arg0)) (m ((c : Thread nD τ).loc main_arg1)) (m ((c : Thread nD τ).loc main_arg2))
    (m ((c : Thread nD τ).loc main_arg3)) (m ((c : Thread nD τ).loc main_arg4)) y (((cfg0.win 5).blk t).view.emb y)
    (fun l => blk_x m c t (ix2 (y 0) l) (ix2 ((((cfg0.win 5).blk t).view.emb y) 0) l) hrow rfl)
    (fun k l => blk_w1 m c t l k) (fun k => blk_b1 m c t k) (fun j k => blk_w2 m c t k j) (fun j => blk_b2 m c t j) hcol

/-- An index of the output array is in point `t`'s block iff each coordinate is in the block's range on its axis. -/
theorem mem_blk (t : Fin cfg0.N) (i : S2097152x32.Idx) :
    i ∈ ((cfg0.win 5).blk t).view.set ↔ ∀ a : Fin 2, win0_5.index t a * S32768x32.size a ≤ (i a).val ∧ (i a).val < win0_5.index t a * S32768x32.size a + S32768x32.size a := by
  show i ∈ ((View.whole main_v5).slice (win0_5.rect t)).set ↔ _
  rw [View.set_slice_whole, Rect.mem_set_unit]
  exact Iff.rfl

/-- Every index of the output array is in the block of the point its row falls in: row `r` is in block `r / 32768`. -/
theorem cover (i : S2097152x32.Idx) : ∃ t : Fin cfg0.N, (cfg0.win 5).flush t = true ∧ i ∈ ((cfg0.win 5).blk t).view.set := by
  have hi0 : (i 0).val < 2097152 := (i 0).isLt
  have hi1 : (i 1).val < 32 := (i 1).isLt
  have hN : cfg0.N = 64 := N_0
  have ht : (i 0).val / 32768 < cfg0.N := by rw [hN]; omega
  obtain ⟨-, -, -, -, -, -, -, -, -, -, e0, e1⟩ := idx_facts ⟨(i 0).val / 32768, ht⟩
  refine ⟨⟨(i 0).val / 32768, ht⟩, flush0_5 _, ?_⟩
  rw [mem_blk]
  intro a
  match a with
  | ⟨0, _⟩ =>
    show win0_5.index ⟨(i 0).val / 32768, ht⟩ (0 : Fin 2) * 32768 ≤ (i 0).val ∧ (i 0).val < win0_5.index ⟨(i 0).val / 32768, ht⟩ (0 : Fin 2) * 32768 + 32768
    rw [e0]
    show (i 0).val / 32768 * 32768 ≤ (i 0).val ∧ (i 0).val < (i 0).val / 32768 * 32768 + 32768
    omega
  | ⟨1, _⟩ =>
    show win0_5.index ⟨(i 0).val / 32768, ht⟩ (1 : Fin 2) * 32 ≤ (i 1).val ∧ (i 1).val < win0_5.index ⟨(i 0).val / 32768, ht⟩ (1 : Fin 2) * 32 + 32
    rw [e1]
    omega

/-- THE OUTPUT ARRAY after the region: the layer of the arguments. -/
theorem final5 (c : Dev nD) : (dats m 0 c).arrAt 5 cfg0.N = result m c :=
  (dats m 0 c).arrAt_eq_of_cover 5 (result m c) (fun t _ => flushed_eq m c t) cover

/-! ## The host line after the region, and the run -/

/-- The result buffer after the last host line: the output array widened, on extended reals the array itself. -/
theorem tail_v6 (c : Dev nD) : Pipeline.afterTail₀ cfgs (dats m) 0 (V0 m) [hostOps1] c main_v6 = result m c := by
  unfold Pipeline.afterTail₀
  show StableHlo.after hostOps1 _ (Proc.devRef .tc main_v6) = _
  after_results
  have e := (Pipeline.withArrays_arr spec0 launch0.win.arr_inj c (V0 m c) (fun w => (dats m 0 c).arrAt w cfg0.N) 5).trans (final5 m c)
  show extf (F := Ideal) (s := S2097152x32) (φ := .bf16) .f32 (Pipeline.withArrays spec0 c (V0 m c) (fun w => (dats m 0 c).arrAt w cfg0.N) (Proc.devRef .tc (Pipeline.arrRef spec0 5))) bitsLt_bf16_f32 = _
  rw [e]
  rfl

/-- THE RUN: every weakly fair execution of the kernel program terminates with the result buffer at the layer of the
    arguments and the arguments unchanged. -/
theorem run : θ_run defs (onTc (τ := τ) (main (F := Ideal))) ⟨m, fun _ => 0, ρ⟩ fun r => ∀ c : Dev nD,
      r.2.mem ((c.tc : Thread nD τ).loc main_v6) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨((h c).2 main_v6 (Pipeline.mem_restRefs_of main_v6 (by decide) (by decide))).trans (tail_v6 m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelIdeal.KValue

end
-- ==== Proof.lean ====
/-
  The certificate's five claims for a two-layer perceptron applied to every row of a batch.

  Kernel and reference both compute, for a batch x : [2097152, 64], weights W1 : [64, 64], W2 : [32, 64] and biases
  b1 : [64], b2 : [32],
      out = leaky(x · W1ᵀ + b1) · W2ᵀ + b2,        leaky h = h when h ≥ 0, else slope · h.
  The reference does it with two whole products on the host. The kernel first transposes the tables and narrows x, then
  walks 64 blocks of 32768 rows, doing both products and the rectifier on one block at a time, and finally widens the
  result. On extended reals narrowing and widening are the identity, a product into a zero accumulator and the host's
  product are the same sum over the 64 contracted coordinates, the rectifier acts entry by entry with the same slope word
  on both sides, and an output row depends only on the same row of x, so cutting the batch into row blocks changes
  nothing. No law beyond the meaning of the operations is used, so finiteness of the inputs is never needed.

  `Cert.Mlp.layer` (Proof/MlpSpec.lean) states the map once. The reference's result is that function of its arguments
  (Proof/RefLayer.lean); the kernel body stores its restriction to a block (Proof/BodyLayer.lean); the blocks cover the
  output array, and the lines of the host program around the region do not change values (Proof/KernelValue.lean). The
  idealized kernel is the kernel's own text read on extended reals, with no operation replaced, so the conjunct that
  relates the two has nothing to state and is `True`.
-/
import proofs.«109939_g54271206752818_cont_9to1_m_1050_23_alg».proof.Defs
import proofs.«109939_g54271206752818_cont_9to1_m_1050_23_alg».proof.Proof.Gen.Kernel
import proofs.«109939_g54271206752818_cont_9to1_m_1050_23_alg».proof.Proof.Gen.Kernel.Skeleton
import proofs.«109939_g54271206752818_cont_9to1_m_1050_23_alg».proof.Proof.Gen.Kernel.Launch
import proofs.«109939_g54271206752818_cont_9to1_m_1050_23_alg».proof.Proof.Gen.Kernel.Points
import proofs.«109939_g54271206752818_cont_9to1_m_1050_23_alg».proof.Proof.Gen.Kernel.Frame
import proofs.«109939_g54271206752818_cont_9to1_m_1050_23_alg».proof.Proof.Gen.KernelIdeal
import proofs.«109939_g54271206752818_cont_9to1_m_1050_23_alg».proof.Proof.Gen.KernelIdeal.Skeleton
import proofs.«109939_g54271206752818_cont_9to1_m_1050_23_alg».proof.Proof.Gen.KernelIdeal.Launch
import proofs.«109939_g54271206752818_cont_9to1_m_1050_23_alg».proof.Proof.Gen.KernelIdeal.Points
import proofs.«109939_g54271206752818_cont_9to1_m_1050_23_alg».proof.Proof.Gen.KernelIdeal.Frame
import proofs.«109939_g54271206752818_cont_9to1_m_1050_23_alg».proof.Proof.Gen.ReferenceIdeal
import proofs.«109939_g54271206752818_cont_9to1_m_1050_23_alg».proof.Proof.Gen.Pre_finite_inputs
import proofs.«109939_g54271206752818_cont_9to1_m_1050_23_alg».proof.Proof.Gen.ReferenceIdeal.Run
import proofs.«109939_g54271206752818_cont_9to1_m_1050_23_alg».proof.Proof.Gen.ReferenceIdeal.Read
import proofs.«109939_g54271206752818_cont_9to1_m_1050_23_alg».proof.Proof.RefLayer
import proofs.«109939_g54271206752818_cont_9to1_m_1050_23_alg».proof.Proof.KernelValue
import Idealize.ShloMosaic.Adequacy
import Idealize.ShloMosaic.Init

noncomputable section

namespace Cert.Proof

open Idealize.ShloMosaic Idealize.ShloMosaic.TcCoe Idealize.SL.Sem

/-- The word-level kernel runs and leaves its arguments alone. -/
theorem frame_kernel [Cert.Kernel.Facts] [Cert.Pre_finite_inputs.Facts] : Cert.frame_Kernel :=
  fun m ρ _ => Cert.Kernel.Gen.frame m ρ

/-- So does the idealized kernel. -/
theorem frame_kernelIdeal [Cert.KernelIdeal.Facts] [Cert.Pre_finite_inputs.Facts] : Cert.frame_KernelIdeal :=
  fun m ρ _ => Cert.KernelIdeal.Gen.frame m ρ

/-- The reference is a straight line of host operations: its run, with the result forgotten. -/
theorem frame_reference [Cert.ReferenceIdeal.Facts] [Cert.Pre_finite_inputs.Facts] : Cert.frame_ReferenceIdeal :=
  fun m ρ _ => (θ_run Cert.ReferenceIdeal.defs _ _).mono (fun _ h c => (h c).2)
    (Cert.ReferenceIdeal.Value.run (F := Ideal) m ρ)

/-- From memories that agree on the five arguments, the idealized kernel and the idealized reference both end with the
    layer of those arguments in their result buffers. -/
theorem algebraic [Cert.KernelIdeal.Facts] [Cert.ReferenceIdeal.Facts] [Cert.Pre_finite_inputs.Facts] :
    Cert.algebraic_KernelIdeal_ReferenceIdeal := by
  intro m ρ m' ρ' _ hagree
  refine ⟨fun c => Cert.KernelIdeal.KValue.result m c, Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v14_eq, Cert.ReferenceIdeal.RefValue.result_eq_layer,
    (hagree c).1, (hagree c).2.1, (hagree c).2.2.1, (hagree c).2.2.2.1, (hagree c).2.2.2.2]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
